-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x256 : Shape := ⟨3, ![64, 1024, 256]⟩
abbrev S64x1024 : Shape := ⟨2, ![64, 1024]⟩
abbrev S256x96 : Shape := ⟨2, ![256, 96]⟩
abbrev S_ : Shape := ⟨0, ![]⟩

class Facts : Prop where
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel
  bcast_S_S256x96 : S_.BroadcastsInDim S256x96 (![] : Fin 0 → Fin S256x96.rank)
  reducesTo_S256x96_S_d0_1 : S256x96.ReducesTo [0, 1] S_

variable [Facts]

def fn {F : FTy → Type} [FloatOps F] (main_arg0 : FVec F S64x1024x256 .f32) (main_arg1 : IVec S64x1024 32) (main_arg2 : IVec S64x1024 32) (main_arg3 : IVec S64x1024 32) (main_arg4 : FVec F S256x96 .f32) : IVec S_ 1 :=
  let main_v0 : FVec F S64x1024x256 .f32 := Host.absf main_arg0
  let main_cst : FVec F S_ .f32 := constant S_ .f32 0x7F800000#32
  let main_v1 : FVec F S64x1024x256 .f32 := broadcastInDim S64x1024x256 ![] bcast_S_S64x1024x256 main_cst
  let main_v2 : IVec S64x1024x256 1 := cmpf .olt main_v0 main_v1
  let main_c : IVec S_ 1 := constantI S_ 1 1#1
  let main_v3 : IVec S_ 1 := (fun x v => Host.reduce IntOp.andi x v reducesTo_S64x1024x256_S_d0_1_2 h_S_) main_v2 main_c
  let main_v4 : FVec F S256x96 .f32 := Host.absf main_arg4
  let main_cst_0 : FVec F S_ .f32 := constant S_ .f32 0x7F800000#32
  let main_v5 : FVec F S256x96 .f32 := broadcastInDim S256x96 ![] bcast_S_S256x96 main_cst_0
  let main_v6 : IVec S256x96 1 := cmpf .olt main_v4 main_v5
  let main_c_1 : IVec S_ 1 := constantI S_ 1 1#1
  let main_v7 : IVec S_ 1 := (fun x v => Host.reduce IntOp.andi x v reducesTo_S256x96_S_d0_1 h_S_) main_v6 main_c_1
  let main_v8 : IVec S_ 1 := andi main_v3 main_v7
  main_v8
-- ==== Kernel.lean ====
abbrev S64x1024x256 : Shape := ⟨3, ![64, 1024, 256]⟩
abbrev S64x1024 : Shape := ⟨2, ![64, 1024]⟩
abbrev S256x96 : Shape := ⟨2, ![256, 96]⟩
abbrev S96x256 : Shape := ⟨2, ![96, 256]⟩
abbrev S64x1024x1 : Shape := ⟨3, ![64, 1024, 1]⟩
abbrev S64x1024x352 : Shape := ⟨3, ![64, 1024, 352]⟩
abbrev S64x64x256 : Shape := ⟨3, ![64, 64, 256]⟩
abbrev S64x64x1 : Shape := ⟨3, ![64, 64, 1]⟩
abbrev S64x64x352 : Shape := ⟨3, ![64, 64, 352]⟩
abbrev S64x64 : Shape := ⟨2, ![64, 64]⟩
abbrev S64x64x32 : Shape := ⟨3, ![64, 64, 32]⟩
abbrev S64x64x96 : Shape := ⟨3, ![64, 64, 96]⟩
abbrev S4096x96 : Shape := ⟨2, ![4096, 96]⟩
abbrev S4096x256 : Shape := ⟨2, ![4096, 256]⟩

abbrev nBuf : Space → Nat
  | .hbm => 11
  | .vmem => 11
  | .smem => 0
  | _ => 0

abbrev bufTy : (tb : Table) → Fin (tcTables nBuf tb) → BufTy
  | .hbm, ⟨0, _⟩ => ⟨S64x1024x256, .f32⟩
  | .hbm, ⟨1, _⟩ => ⟨S64x1024, .i32⟩
  | .hbm, ⟨2, _⟩ => ⟨S64x1024, .i32⟩
  | .hbm, ⟨3, _⟩ => ⟨S64x1024, .i32⟩
  | .hbm, ⟨4, _⟩ => ⟨S256x96, .f32⟩
  | .hbm, ⟨5, _⟩ => ⟨S96x256, .f32⟩
  | .hbm, ⟨6, _⟩ => ⟨S96x256, .bf16⟩
  | .hbm, ⟨7, _⟩ => ⟨S64x1024x1, .i32⟩
  | .hbm, ⟨8, _⟩ => ⟨S64x1024x1, .i32⟩
  | .hbm, ⟨9, _⟩ => ⟨S64x1024x1, .i32⟩
  | .hbm, ⟨10, _⟩ => ⟨S64x1024x352, .f32⟩
  | .local _ .vmem, ⟨0, _⟩ => ⟨S64x64x256, .f32⟩
  | .local _ .vmem, ⟨1, _⟩ => ⟨S64x64x256, .f32⟩
  | .local _ .vmem, ⟨2, _⟩ => ⟨S64x64x1, .i32⟩
  | .local _ .vmem, ⟨3, _⟩ => ⟨S64x64x1, .i32⟩
  | .local _ .vmem, ⟨4, _⟩ => ⟨S64x64x1, .i32⟩
  | .local _ .vmem, ⟨5, _⟩ => ⟨S64x64x1, .i32⟩
  | .local _ .vmem, ⟨6, _⟩ => ⟨S64x64x1, .i32⟩
  | .local _ .vmem, ⟨7, _⟩ => ⟨S64x64x1, .i32⟩
  | .local _ .vmem, ⟨8, _⟩ => ⟨S96x256, .bf16⟩
  | .local _ .vmem, ⟨9, _⟩ => ⟨S64x64x352, .f32⟩
  | .local _ .vmem, ⟨10, _⟩ => ⟨S64x64x352, .f32⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S96x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x64x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S256x96_S96x256_1_0 : S256x96.Transposes [1, 0] S96x256
  bitsLt_bf16_f32 : FTy.bits .bf16 < FTy.bits .f32
  bcast_S64x1024_S64x1024x1_0_1 : S64x1024.BroadcastsInDim S64x1024x1 (![0, 1] : Fin 2 → Fin S64x1024x1.rank)
  inb_S64x64x1_S64x64x1_0_0_0 : ∀ a, (![0, 0, 0] : Fin 3 → Nat) a + S64x64x1.size a ≤ S64x64x1.size a
  h_S64x64x1 : 0 < S64x64x1.numel
  shapeCasts_S64x64x1_S64x64x1 : S64x64x1.ShapeCasts S64x64x1
  shapeCasts_S64x64x1_S64x64 : S64x64x1.ShapeCasts S64x64
  iota_S64x64x32_d2_w32 : S64x64x32.Iotas .tc 32 [2]
  shapeCasts_S64x64_S64x64x1 : S64x64.ShapeCasts S64x64x1
  broadcasts_S64x64x1_S64x64x32 : S64x64x1.Broadcasts S64x64x32
  natLt_1_32 : 1 < 32
  concatenates_S64x64x32_S64x64x32_S64x64x32_S64x64x96_d2 : Shape.Concatenates [S64x64x32, S64x64x32, S64x64x32] S64x64x96 2
  shapeCasts_S64x64x96_S4096x96 : S64x64x96.ShapeCasts S4096x96
  inb_S96x256_S96x256_0_0 : ∀ a, (![0, 0] : Fin 2 → Nat) a + S96x256.size a ≤ S96x256.size a
  h_S96x256 : 0 < S96x256.numel
  shapeCasts_S96x256_S96x256 : S96x256.ShapeCasts S96x256
  shapeCasts_S4096x256_S64x64x256 : S4096x256.ShapeCasts S64x64x256
  inb_S64x64x256_S64x64x256_0_0_0 : ∀ a, (![0, 0, 0] : Fin 3 → Nat) a + S64x64x256.size a ≤ S64x64x256.size a
  h_S64x64x256 : 0 < S64x64x256.numel
  inb_S64x64x352_S64x64x256_0_0_0 : ∀ a, (![0, 0, 0] : Fin 3 → Nat) a + S64x64x256.size a ≤ S64x64x352.size a
  inb_S64x64x352_S64x64x96_0_0_256 : ∀ a, (![0, 0, 256] : Fin 3 → Nat) a + S64x64x96.size a ≤ S64x64x352.size a
  h_S64x64x96 : 0 < S64x64x96.numel
  dot_S4096x96_S96x256_S4096x256_1_0_0_1_n_n_wf : DotDims.WF S4096x96 S96x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x256.size a ≤ S64x1024x256.size a
  hwx0_0 : ∀ i : grid0.Coords, EltTy.bits .f32 = 32 ∨ (Rect.block (s := S64x1024x256) S64x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x1.size a ≤ S64x1024x1.size a
  hwx0_1 : ∀ i : grid0.Coords, EltTy.bits .i32 = 32 ∨ (Rect.block (s := S64x1024x1) S64x64x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64x1.size a ≤ S64x1024x1.size a
  hwx0_2 : ∀ i : grid0.Coords, EltTy.bits .i32 = 32 ∨ (Rect.block (s := S64x1024x1) S64x64x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x64x1.size a ≤ S64x1024x1.size a
  hwx0_3 : ∀ i : grid0.Coords, EltTy.bits .i32 = 32 ∨ (Rect.block (s := S64x1024x1) S64x64x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x256.size a ≤ S96x256.size a
  hwx0_4 : ∀ i : grid0.Coords, EltTy.bits .bf16 = 32 ∨ (Rect.block (s := S96x256) S96x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x64x352.size a ≤ S64x1024x352.size a
  hwx0_5 : ∀ i : grid0.Coords, EltTy.bits .f32 = 32 ∨ (Rect.block (s := S64x1024x352) S64x64x352.size (cc0_transform_5 i) (hinb0_5 i)).WholeWords (EltTy.packing .f32)

variable [Facts₀]

def dot_S4096x96_S96x256_S4096x256_1_0_0_1_n_n : DotDims S4096x96 S96x256 S4096x256 where
  lhsContracting := [1]
  rhsContracting := [0]
  lhsNonContracting := [0]
  rhsNonContracting := [1]
  lhsBatch := []
  rhsBatch := []
  wf := dot_S4096x96_S96x256_S4096x256_1_0_0_1_n_n_wf

abbrev win0_0 : Pipeline.Window sig grid0 :=
  Pipeline.Window.ofSpec (Memref.whole main_arg0) S64x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x64x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S96x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S64x64x352.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x1024x256 : Shape := ⟨3, ![64, 1024, 256]⟩
abbrev S64x1024 : Shape := ⟨2, ![64, 1024]⟩
abbrev S256x96 : Shape := ⟨2, ![256, 96]⟩
abbrev S64x1024x1 : Shape := ⟨3, ![64, 1024, 1]⟩
abbrev S1x1x32 : Shape := ⟨3, ![1, 1, 32]⟩
abbrev S64x1024x32 : Shape := ⟨3, ![64, 1024, 32]⟩
abbrev S64x1024x96 : Shape := ⟨3, ![64, 1024, 96]⟩
abbrev S64x1024x352 : Shape := ⟨3, ![64, 1024, 352]⟩

abbrev nBuf : Space → Nat
  | .hbm => 27
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S64x1024, .i32⟩
  | .hbm, ⟨2, _⟩ => ⟨S64x1024, .i32⟩
  | .hbm, ⟨3, _⟩ => ⟨S64x1024, .i32⟩
  | .hbm, ⟨4, _⟩ => ⟨S256x96, .f32⟩
  | .hbm, ⟨5, _⟩ => ⟨S64x1024x1, .i32⟩
  | .hbm, ⟨6, _⟩ => ⟨S1x1x32, .i32⟩
  | .hbm, ⟨7, _⟩ => ⟨S64x1024x32, .i32⟩
  | .hbm, ⟨8, _⟩ => ⟨S64x1024x32, .i32⟩
  | .hbm, ⟨9, _⟩ => ⟨S64x1024x32, .i1⟩
  | .hbm, ⟨10, _⟩ => ⟨S64x1024x32, .f32⟩
  | .hbm, ⟨11, _⟩ => ⟨S64x1024x1, .i32⟩
  | .hbm, ⟨12, _⟩ => ⟨S1x1x32, .i32⟩
  | .hbm, ⟨13, _⟩ => ⟨S64x1024x32, .i32⟩
  | .hbm, ⟨14, _⟩ => ⟨S64x1024x32, .i32⟩
  | .hbm, ⟨15, _⟩ => ⟨S64x1024x32, .i1⟩
  | .hbm, ⟨16, _⟩ => ⟨S64x1024x32, .f32⟩
  | .hbm, ⟨17, _⟩ => ⟨S64x1024x1, .i32⟩
  | .hbm, ⟨18, _⟩ => ⟨S1x1x32, .i32⟩
  | .hbm, ⟨19, _⟩ => ⟨S64x1024x32, .i32⟩
  | .hbm, ⟨20, _⟩ => ⟨S64x1024x32, .i32⟩
  | .hbm, ⟨21, _⟩ => ⟨S64x1024x32, .i1⟩
  | .hbm, ⟨22, _⟩ => ⟨S64x1024x32, .f32⟩
  | .hbm, ⟨23, _⟩ => ⟨S64x1024x96, .f32⟩
  | .hbm, ⟨24, _⟩ => ⟨S64x1024x256, .f32⟩
  | .hbm, ⟨25, _⟩ => ⟨S64x1024x256, .f32⟩
  | .hbm, ⟨26, _⟩ => ⟨S64x1024x352, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v1 : Ref sig .tc := ⟨.hbm, 16, rfl⟩
abbrev main_call2_v0 : Ref sig .tc := ⟨.hbm, 17, rfl⟩
abbrev main_call2_v1 : Ref sig .tc := ⟨.hbm, 18, rfl⟩
abbrev main_call2_v2 : Ref sig .tc := ⟨.hbm, 19, rfl⟩
abbrev main_call2_v3 : Ref sig .tc := ⟨.hbm, 20, rfl⟩
abbrev main_call2_v4 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩

abbrev nD : Nat := 1
abbrev τ : Topo := Topo.v7x

variable {F : FTy → Type} [FloatOps F]

class Facts₀ : Prop where
  bcast_S64x1024_S64x1024x1_0_1 : S64x1024.BroadcastsInDim S64x1024x1 (![0, 1] : Fin 2 → Fin S64x1024x1.rank)
  bcast_S64x1024x1_S64x1024x32_0_1_2 : S64x1024x1.BroadcastsInDim S64x1024x32 (![0, 1, 2] : Fin 3 → Fin S64x1024x32.rank)
  bcast_S1x1x32_S64x1024x32_0_1_2 : S1x1x32.BroadcastsInDim S64x1024x32 (![0, 1, 2] : Fin 3 → Fin S64x1024x32.rank)
  concatenates_S64x1024x32_S64x1024x32_S64x1024x32_S64x1024x96_d2 : Shape.Concatenates [S64x1024x32, S64x1024x32, S64x1024x32] S64x1024x96 2
  concatenates_S64x1024x256_S64x1024x96_S64x1024x352_d2 : Shape.Concatenates [S64x1024x256, S64x1024x96] S64x1024x352 2
  dot_S64x1024x96_S256x96_S64x1024x256_2_1_01_0_n_n_wf : DotDims.WF S64x1024x96 S256x96 S64x1024x256 [2] [1] [0, 1] [0] [] []

variable [Facts₀]

def dot_S64x1024x96_S256x96_S64x1024x256_2_1_01_0_n_n : DotDims S64x1024x96 S256x96 S64x1024x256 where
  lhsContracting := [2]
  rhsContracting := [1]
  lhsNonContracting := [0, 1]
  rhsNonContracting := [0]
  lhsBatch := []
  rhsBatch := []
  wf := dot_S64x1024x96_S256x96_S64x1024x256_2_1_01_0_n_n_wf

class Facts : Prop extends Facts₀ where

variable [Facts]
-- ==== Proof.Spec.lean ====
/-
  The result both programs compute, as one function of the argument arrays.

  For a batch row b and a sequence position s the three index words r = rgap[b, s], g = sgap[b, s] and
  c = pcount[b, s] give a code of 96 entries, three one-hot codes of 32 classes side by side: entry n < 32 is 1 when
  r = n, entry 32 + n is 1 when g = n, entry 64 + n is 1 when c = n, and every other entry is 0 (a word outside
  0 … 31 gives an all-zero code: nothing is assumed of the words). The result row at (b, s) has 352 entries:

      out[b, s, j]       = vt[b, s, j] · Σ_{n < 96} code(n) · W[j, n]      for j < 256   (the gated projection)
      out[b, s, 256 + n] = code(n)                                          for n < 96    (the code itself).

  A row depends on the arguments only through row (b, s) of vt, the three words at (b, s), and W: that is what lets a
  tile of rows be computed from the same tile of the inputs. The sum is a plain finite sum of extended reals and the
  products are taken as written, so no law of arithmetic beyond reading both programs at an index is needed to
  compare them, and no finiteness.
-/
import Idealize.ShloMosaic.PureOps.Ideal
import Idealize.ShloMosaic.Lib.ValueIdx

noncomputable section

namespace Cert.Spec

open Idealize.ShloMosaic Idealize.ShloMosaic.ValueIdx

/-- 1 when the word `w` is `k`, else 0: the bit of the equality comparison read as a number. -/
def ind (w : BitVec 32) (k : ℕ) : EReal := (((IntOp.cmpi .eq w (BitVec.ofNat 32 k)).toNat : ℝ) : EReal)

/-- Entry `n` of the code of the three words: three indicators of 32 classes side by side. -/
def code (r g c : BitVec 32) (n : ℕ) : EReal :=
  if n < 32 then ind r n else if n < 32 + 32 then ind g (n - 32) else ind c (n - 32 - 32)

/-- Entry `j` of a result row, from the row `x` of vt, the three words and the weight `w` (`w e n` = W[e, n]). -/
def row (x : Fin 256 → EReal) (r g c : BitVec 32) (w : Fin 256 → Fin 96 → EReal) (j : ℕ) : EReal :=
  if h : j < 256 then x ⟨j, h⟩ * ∑ n : Fin 96, code r g c n.val * w ⟨j, h⟩ n else code r g c (j - 256)

/-- The whole result array. -/
def G (vt : (⟨3, ![64, 1024, 256]⟩ : Shape).Idx → EReal) (rg sg pc : (⟨2, ![64, 1024]⟩ : Shape).Idx → BitVec 32)
    (W : (⟨2, ![256, 96]⟩ : Shape).Idx → EReal) : (⟨3, ![64, 1024, 352]⟩ : Shape).Idx → EReal :=
  fun i => row (fun e => vt (ix3 (i 0) (i 1) e)) (rg (ix2 (i 0) (i 1))) (sg (ix2 (i 0) (i 1))) (pc (ix2 (i 0) (i 1)))
    (fun e n => W (ix2 e n)) (i 2).val

/-- One tile of 64 sequence positions of the result, from the same tile of vt, of the three words (as columns
    [64, 64, 1]) and the weight transposed (`wt (n, e)` = W[e, n]). -/
def tile (x : (⟨3, ![64, 64, 256]⟩ : Shape).Idx → EReal) (r g c : (⟨3, ![64, 64, 1]⟩ : Shape).Idx → BitVec 32)
    (wt : (⟨2, ![96, 256]⟩ : Shape).Idx → EReal) : (⟨3, ![64, 64, 352]⟩ : Shape).Idx → EReal :=
  fun y => row (fun e => x (ix3 (y 0) (y 1) e)) (r (ix3 (y 0) (y 1) (0 : Fin 1))) (g (ix3 (y 0) (y 1) (0 : Fin 1)))
    (c (ix3 (y 0) (y 1) (0 : Fin 1))) (fun e n => wt (ix2 n e)) (y 2).val

/-- A tile entry in the first 256 columns, its coordinates named: the gated projection of row (p, q). -/
theorem tile_apply_lo (x : (⟨3, ![64, 64, 256]⟩ : Shape).Idx → EReal) (r g c : (⟨3, ![64, 64, 1]⟩ : Shape).Idx → BitVec 32)
    (wt : (⟨2, ![96, 256]⟩ : Shape).Idx → EReal) (y : (⟨3, ![64, 64, 352]⟩ : Shape).Idx) (p q : Fin 64) (e : Fin 256)
    (h0 : (y 0).val = p.val) (h1 : (y 1).val = q.val) (h2 : (y 2).val = e.val) :
    tile x r g c wt y = x (ix3 p q e) * ∑ n : Fin 96,
      code (r (ix3 p q (0 : Fin 1))) (g (ix3 p q (0 : Fin 1))) (c (ix3 p q (0 : Fin 1))) n.val * wt (ix2 n e) := by
  have he : e.val < 352 := Nat.lt_of_lt_of_le e.isLt (by decide)
  have hy : y = ix3 p q (⟨e.val, he⟩ : Fin 352) := by
    funext a; apply Fin.ext
    match a with
    | ⟨0, _⟩ => exact h0
    | ⟨1, _⟩ => exact h1
    | ⟨2, _⟩ => exact h2
  rw [hy]
  show row (fun e' => x (ix3 p q e')) (r (ix3 p q (0 : Fin 1))) (g (ix3 p q (0 : Fin 1))) (c (ix3 p q (0 : Fin 1)))
    (fun e' n => wt (ix2 n e')) e.val = _
  unfold row
  rw [dif_pos e.isLt]

/-- A tile entry in the last 96 columns, its coordinates named: the code of row (p, q). -/
theorem tile_apply_hi (x : (⟨3, ![64, 64, 256]⟩ : Shape).Idx → EReal) (r g c : (⟨3, ![64, 64, 1]⟩ : Shape).Idx → BitVec 32)
    (wt : (⟨2, ![96, 256]⟩ : Shape).Idx → EReal) (y : (⟨3, ![64, 64, 352]⟩ : Shape).Idx) (p q : Fin 64) (n : Fin 96)
    (h0 : (y 0).val = p.val) (h1 : (y 1).val = q.val) (h2 : (y 2).val = 256 + n.val) :
    tile x r g c wt y = code (r (ix3 p q (0 : Fin 1))) (g (ix3 p q (0 : Fin 1))) (c (ix3 p q (0 : Fin 1))) n.val := by
  have hn : 256 + n.val < 352 := Nat.add_lt_add_left n.isLt 256
  have hy : y = ix3 p q (⟨256 + n.val, hn⟩ : Fin 352) := by
    funext a; apply Fin.ext
    match a with
    | ⟨0, _⟩ => exact h0
    | ⟨1, _⟩ => exact h1
    | ⟨2, _⟩ => exact h2
  rw [hy]
  show row (fun e' => x (ix3 p q e')) (r (ix3 p q (0 : Fin 1))) (g (ix3 p q (0 : Fin 1))) (c (ix3 p q (0 : Fin 1)))
    (fun e' n => wt (ix2 n e')) (256 + n.val) = _
  unfold row
  rw [dif_neg (by omega), Nat.add_sub_cancel_left]

/-- A tile entry is the array entry it lands on, when the tile's inputs at the entry's row are the arrays' at the
    landing row and the column is the same: a result row depends only on its own row of the inputs. -/
theorem tile_eq_G (vt : (⟨3, ![64, 1024, 256]⟩ : Shape).Idx → EReal) (rg sg pc : (⟨2, ![64, 1024]⟩ : Shape).Idx → BitVec 32)
    (W : (⟨2, ![256, 96]⟩ : Shape).Idx → EReal)
    (x : (⟨3, ![64, 64, 256]⟩ : Shape).Idx → EReal) (r g c : (⟨3, ![64, 64, 1]⟩ : Shape).Idx → BitVec 32)
    (wt : (⟨2, ![96, 256]⟩ : Shape).Idx → EReal)
    (i : (⟨3, ![64, 1024, 352]⟩ : Shape).Idx) (y : (⟨3, ![64, 64, 352]⟩ : Shape).Idx)
    (hx : ∀ e : Fin 256, x (ix3 (y 0) (y 1) e) = vt (ix3 (i 0) (i 1) e))
    (hr : r (ix3 (y 0) (y 1) (0 : Fin 1)) = rg (ix2 (i 0) (i 1)))
    (hg : g (ix3 (y 0) (y 1) (0 : Fin 1)) = sg (ix2 (i 0) (i 1)))
    (hc : c (ix3 (y 0) (y 1) (0 : Fin 1)) = pc (ix2 (i 0) (i 1)))
    (hw : ∀ (e : Fin 256) (n : Fin 96), wt (ix2 n e) = W (ix2 e n))
    (hj : (y 2).val = (i 2).val) :
    tile x r g c wt y = G vt rg sg pc W i := by
  have h1 : (fun e : Fin 256 => x (ix3 (y 0) (y 1) e)) = fun e => vt (ix3 (i 0) (i 1) e) := funext hx
  have h2 : (fun (e : Fin 256) (n : Fin 96) => wt (ix2 n e)) = fun e n => W (ix2 e n) := funext fun e => funext fun n => hw e n
  unfold tile G
  rw [h1, h2, hr, hg, hc, hj]

end Cert.Spec

end
-- ==== Proof.LibLastAxisJoin.lean ====
/-
  Stacks joined along their last axis, read at an index; and the bit of a comparison read as a number.

  A concatenation of [a, b, n₀], [a, b, n₁] (and [a, b, n₂]) stacks along the last axis is a [a, b, N] stack with
  N the sum of the extents. Read at (p, q, j) it is the piece whose span holds j, at (p, q, j less the extents before
  it): one dependent `if` per boundary, the coordinates written out, generic in every extent and in the element
  type. With it: a one-bit word widened to 32 bits and read as a signed integer is the bit read as a natural number
  (both are 0 or 1), which is what makes "compare, widen, convert signed" and "compare, convert unsigned" one value.
-/
import Idealize.ShloMosaic.Lib.Pipeline.Value
import Idealize.ShloMosaic.Lib.ValueIdx

namespace Cert.Lib

open Idealize.ShloMosaic Idealize.ShloMosaic.ValueIdx

variable {α : Type}

/-- Two stacks joined along the last axis, read at (p, q, j): the first at j when j < n₀, else the second at j - n₀. -/
theorem join2_last_apply {a b n0 n1 N : ℕ} (x0 : (⟨3, ![a, b, n0]⟩ : Shape).Idx → α)
    (x1 : (⟨3, ![a, b, n1]⟩ : Shape).Idx → α)
    (h : Shape.Concatenates [(⟨3, ![a, b, n0]⟩ : Shape), ⟨3, ![a, b, n1]⟩] ⟨3, ![a, b, N]⟩ 2)
    (hN : N = n0 + n1) (p : Fin a) (q : Fin b) (j : Fin N) :
    concatenate ⟨3, ![a, b, N]⟩ 2 [⟨⟨3, ![a, b, n0]⟩, x0⟩, ⟨⟨3, ![a, b, n1]⟩, x1⟩] h (ix3 p q j)
      = if h0 : j.val < n0 then x0 (ix3 p q ⟨j.val, h0⟩)
        else x1 (ix3 p q ⟨j.val - n0, by have := j.isLt; omega⟩) := by
  split
  · next h0 =>
    exact concatenate_pair_apply_left 2 x0 x1 h (ix3 p q j) rfl (ix3 p q ⟨j.val, h0⟩) (fun c => by
      match c with
      | ⟨0, _⟩ => rfl
      | ⟨1, _⟩ => rfl
      | ⟨2, _⟩ => rfl)
  · next h0 =>
    exact concatenate_pair_apply_right 2 x0 x1 h (ix3 p q j) rfl rfl (ix3 p q ⟨j.val - n0, by have := j.isLt; omega⟩)
      (fun c => by
        match c with
        | ⟨0, _⟩ => exact fun _ => rfl
        | ⟨1, _⟩ => exact fun _ => rfl
        | ⟨2, _⟩ => exact fun hc => absurd rfl hc)
      (by show j.val - n0 + n0 = j.val; omega)

/-- Three stacks joined along the last axis, read at (p, q, j): the piece whose span holds j. -/
theorem join3_last_apply {a b n0 n1 n2 N : ℕ} (x0 : (⟨3, ![a, b, n0]⟩ : Shape).Idx → α)
    (x1 : (⟨3, ![a, b, n1]⟩ : Shape).Idx → α) (x2 : (⟨3, ![a, b, n2]⟩ : Shape).Idx → α)
    (h : Shape.Concatenates [(⟨3, ![a, b, n0]⟩ : Shape), ⟨3, ![a, b, n1]⟩, ⟨3, ![a, b, n2]⟩] ⟨3, ![a, b, N]⟩ 2)
    (hN : N = n0 + n1 + n2) (p : Fin a) (q : Fin b) (j : Fin N) :
    concatenate ⟨3, ![a, b, N]⟩ 2 [⟨⟨3, ![a, b, n0]⟩, x0⟩, ⟨⟨3, ![a, b, n1]⟩, x1⟩, ⟨⟨3, ![a, b, n2]⟩, x2⟩] h (ix3 p q j)
      = if h0 : j.val < n0 then x0 (ix3 p q ⟨j.val, h0⟩)
        else if h1 : j.val < n0 + n1 then x1 (ix3 p q ⟨j.val - n0, by omega⟩)
        else x2 (ix3 p q ⟨j.val - n0 - n1, by have := j.isLt; omega⟩) := by
  split
  · next h0 =>
    exact concatenate_apply_piece 2 [⟨⟨3, ![a, b, n0]⟩, x0⟩, ⟨⟨3, ![a, b, n1]⟩, x1⟩, ⟨⟨3, ![a, b, n2]⟩, x2⟩] h (ix3 p q j) 0 (by simp) _ x0 rfl rfl 0 rfl (ix3 p q ⟨j.val, h0⟩)
      (fun c => by
        match c with
        | ⟨0, _⟩ => exact fun _ => rfl
        | ⟨1, _⟩ => exact fun _ => rfl
        | ⟨2, _⟩ => exact fun hc => absurd rfl hc)
      (by show 0 + j.val = j.val; omega)
  · next h0 =>
    split
    · next h1 =>
      exact concatenate_apply_piece 2 [⟨⟨3, ![a, b, n0]⟩, x0⟩, ⟨⟨3, ![a, b, n1]⟩, x1⟩, ⟨⟨3, ![a, b, n2]⟩, x2⟩] h (ix3 p q j) 1 (by simp) _ x1 rfl rfl n0 (by simp) (ix3 p q ⟨j.val - n0, by omega⟩)
        (fun c => by
          match c with
          | ⟨0, _⟩ => exact fun _ => rfl
          | ⟨1, _⟩ => exact fun _ => rfl
          | ⟨2, _⟩ => exact fun hc => absurd rfl hc)
        (by show n0 + (j.val - n0) = j.val; omega)
    · next h1 =>
      exact concatenate_apply_piece 2 [⟨⟨3, ![a, b, n0]⟩, x0⟩, ⟨⟨3, ![a, b, n1]⟩, x1⟩, ⟨⟨3, ![a, b, n2]⟩, x2⟩] h (ix3 p q j) 2 (by simp) _ x2 rfl rfl (n0 + n1) (by simp)
        (ix3 p q ⟨j.val - n0 - n1, by have := j.isLt; omega⟩)
        (fun c => by
          match c with
          | ⟨0, _⟩ => exact fun _ => rfl
          | ⟨1, _⟩ => exact fun _ => rfl
          | ⟨2, _⟩ => exact fun hc => absurd rfl hc)
        (by show n0 + n1 + (j.val - n0 - n1) = j.val; omega)

/-- A one-bit word widened to 32 bits and read signed is the bit read as a natural number. -/
theorem toInt_setWidth_bit (b : BitVec 1) : ((b.setWidth 32).toInt : ℝ) = ((b.toNat : ℕ) : ℝ) := by
  have h : ∀ b : BitVec 1, (b.setWidth 32).toInt = (b.toNat : ℤ) := by decide
  rw [h b]; simp

end Cert.Lib
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibTileFlatten.lean ====
/-
  A stack of matrices flattened for a matrix product, and cut back.

  A [a, b, n] stack becomes a [m, n] matrix with m = a·b (what a reshape before a matrix product does) and a [m, n]
  result is cut back into a [a, b, n] stack: a cast keeps the row-major position, so row `r = p·b + q` of the matrix is
  entry (p, q) of the stack. With them, two repeats read at an index: a [a, b, 1] stack repeated along its last axis,
  and a vector [n] given two leading unit axes. Every lemma is generic in the extents and has both indices written by
  their coordinates.
-/
import Idealize.ShloMosaic.Lib.ValueLayout

namespace Cert.Lib

open Idealize.ShloMosaic Idealize.ShloMosaic.ValueIdx

variable {α : Type}

/-- A [a, b, n] stack flattened to a [m, n] matrix (m = a·b) reads, at row `r = p·b + q` and column k, the stack at
    (p, q, k). -/
theorem shapeCast_abn_mn_apply {a b n m : ℕ} (x : (⟨3, ![a, b, n]⟩ : Shape).Idx → α)
    (h : (⟨3, ![a, b, n]⟩ : Shape).ShapeCasts ⟨2, ![m, n]⟩) (p : Fin a) (q : Fin b) (k : Fin n) (r : Fin m)
    (hr : r.val = p.val * b + q.val) :
    shapeCast ⟨2, ![m, n]⟩ x h (ix2 r k) = x (ix3 p q k) :=
  shapeCast_apply x h _ _ (by
    rw [Shape.rowMajor_val_three, Shape.rowMajor_val_two]
    show (p.val * b + q.val) * n + k.val = r.val * n + k.val
    rw [hr])

/-- A [m, n] matrix (m = a·b) cut into a [a, b, n] stack reads, at (p, q, k), the matrix at row `r = p·b + q`. -/
theorem shapeCast_mn_abn_apply {a b n m : ℕ} (x : (⟨2, ![m, n]⟩ : Shape).Idx → α)
    (h : (⟨2, ![m, n]⟩ : Shape).ShapeCasts ⟨3, ![a, b, n]⟩) (p : Fin a) (q : Fin b) (k : Fin n) (r : Fin m)
    (hr : r.val = p.val * b + q.val) :
    shapeCast ⟨3, ![a, b, n]⟩ x h (ix3 p q k) = x (ix2 r k) :=
  shapeCast_apply x h _ _ (by
    rw [Shape.rowMajor_val_three, Shape.rowMajor_val_two]
    show r.val * n + k.val = (p.val * b + q.val) * n + k.val
    rw [hr])

/-- A [a, b, 1] stack repeated along its last axis to [a, b, n] reads, at (p, q, k), the stack at (p, q, 0). -/
theorem broadcastTo_ab1_abn_apply {a b n : ℕ} (v : (⟨3, ![a, b, 1]⟩ : Shape).Idx → α)
    (h : (⟨3, ![a, b, 1]⟩ : Shape).Broadcasts ⟨3, ![a, b, n]⟩) (p : Fin a) (q : Fin b) (k : Fin n) :
    broadcastTo ⟨3, ![a, b, n]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector [n] given two leading unit axes reads, at (u, v, k), the vector at k. -/
theorem shapeCast_n_11n_apply {n : ℕ} (x : (⟨1, ![n]⟩ : Shape).Idx → α)
    (h : (⟨1, ![n]⟩ : Shape).ShapeCasts ⟨3, ![1, 1, n]⟩) (u v : Fin 1) (k : Fin n) :
    shapeCast ⟨3, ![1, 1, n]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * n + k.val
    rw [hu, hv]
    simp)

end Cert.Lib
-- ==== Proof.KernelTile.lean ====
/-
  The kernel body's two stored values, read at an index.

  The body loads a tile of 64 sequence positions: the vt tile [64, 64, 256], the three word columns [64, 64, 1] and
  the transposed weight [96, 256]. Its second store writes the code: each word column, recast and repeated 32 times
  along the last axis, is compared with the position along that axis; the comparison's bit, widened and converted, is
  the indicator; the three indicator stacks are joined along the last axis. Its first store writes the gated
  projection: the code flattened to a [4096, 96] matrix (row p·64 + q is tile row (p, q)), multiplied into the zero
  accumulator with the transposed weight, cut back into the tile, and multiplied entry by entry with the vt tile. A
  change of float format is the identity on the extended reals, so the narrowing of the code before the product
  does nothing.
-/
import proofs.«123572_j3487513444382_1_alg».proof.Proof.Gen.KernelIdeal.Skeleton
import proofs.«123572_j3487513444382_1_alg».proof.Proof.Spec
import proofs.«123572_j3487513444382_1_alg».proof.Proof.LibLastAxisJoin
import proofs.«123572_j3487513444382_1_alg».proof.Proof.LibMatmul2
import proofs.«123572_j3487513444382_1_alg».proof.Proof.LibTileFlatten
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx Cert.Spec

/-- A word column recast [64, 64, 1] → [64, 64] → [64, 64, 1] and repeated along the last axis reads, at (p, q, k),
    the word of row (p, q). -/
theorem words_apply (v : Vec Ideal S64x64x1 .i32) (p q : Fin 64) (k : Fin 32) :
    broadcastTo S64x64x32 (shapeCast S64x64x1 (shapeCast S64x64 (shapeCast S64x64x1 v shapeCasts_S64x64x1_S64x64x1)
      shapeCasts_S64x64x1_S64x64) shapeCasts_S64x64_S64x64x1) broadcasts_S64x64x1_S64x64x32 (ix3 p q k)
      = v (ix3 p q (0 : Fin 1)) := by
  rw [shapeCast_self, shapeCast_shapeCast]
  exact Cert.Lib.broadcastTo_ab1_abn_apply v _ p q k

/-- One indicator stack at (p, q, k): 1 when the word of row (p, q) is k. -/
theorem onehot_apply (v : Vec Ideal S64x64x1 .i32) (p q : Fin 64) (k : Fin 32) :
    sitofp (F := Ideal) .f32 (extui 32 (cmpi .eq
      (broadcastTo S64x64x32 (shapeCast S64x64x1 (shapeCast S64x64 (shapeCast S64x64x1 v shapeCasts_S64x64x1_S64x64x1)
        shapeCasts_S64x64x1_S64x64) shapeCasts_S64x64_S64x64x1) broadcasts_S64x64x1_S64x64x32)
      (iota .tc S64x64x32 32 [2] iota_S64x64x32_d2_w32)) natLt_1_32) (ix3 p q k)
      = ind (v (ix3 p q (0 : Fin 1))) k.val := by
  have hw := words_apply v p q k
  have hi := iota_single_apply .tc S64x64x32 32 2 iota_S64x64x32_d2_w32 (ix3 p q k)
  show ((((IntOp.cmpi .eq
      (broadcastTo S64x64x32 (shapeCast S64x64x1 (shapeCast S64x64 (shapeCast S64x64x1 v shapeCasts_S64x64x1_S64x64x1)
        shapeCasts_S64x64x1_S64x64) shapeCasts_S64x64_S64x64x1) broadcasts_S64x64x1_S64x64x32 (ix3 p q k))
      (iota .tc S64x64x32 32 [2] iota_S64x64x32_d2_w32 (ix3 p q k))).setWidth 32).toInt : ℝ) : EReal) = _
  rw [hw, hi, Cert.Lib.toInt_setWidth_bit]
  rfl

/-- The stored code at (p, q, n) is the specification's code of the three words of row (p, q). -/
theorem pay1_apply (v0 v3 v6 : Vec Ideal S64x64x1 .i32) (p q : Fin 64) (n : Fin 96) :
    k0_pay1 (F := Ideal) v0 v3 v6 (ix3 p q n)
      = code (v0 (ix3 p q (0 : Fin 1))) (v3 (ix3 p q (0 : Fin 1))) (v6 (ix3 p q (0 : Fin 1))) n.val := by
  unfold k0_pay1
  refine (Cert.Lib.join3_last_apply (a := 64) (b := 64) (n0 := 32) (n1 := 32) (n2 := 32) (N := 96) _ _ _ _ rfl p q n).trans ?_
  unfold code
  by_cases h0 : n.val < 32
  · rw [dif_pos h0, if_pos h0]
    exact onehot_apply v0 p q ⟨n.val, h0⟩
  · rw [dif_neg h0, if_neg h0]
    by_cases h1 : n.val < 32 + 32
    · rw [dif_pos h1, if_pos h1]
      exact onehot_apply v3 p q ⟨n.val - 32, by omega⟩
    · rw [dif_neg h1, if_neg h1]
      exact onehot_apply v6 p q ⟨n.val - 32 - 32, by have := n.isLt; omega⟩

/-- The product of the flattened code with the transposed weight, cut back into the tile, at (p, q, e): the sum over
    the 96 code entries of row (p, q) times column e of the transposed weight. -/
theorem gate_apply (ct : FVec Ideal S64x64x96 .f32) (w : FVec Ideal S96x256 .bf16) (p q : Fin 64) (e : Fin 256) :
    shapeCast S64x64x256 (matmul dot_S4096x96_S96x256_S4096x256_1_0_0_1_n_n none
      (shapeCast S4096x96 (truncf .bf16 ct bitsLt_bf16_f32) shapeCasts_S64x64x96_S4096x96)
      (shapeCast S96x256 w shapeCasts_S96x256_S96x256) (constant S4096x256 .f32 0x00000000#32))
      shapeCasts_S4096x256_S64x64x256 (ix3 p q e)
      = ∑ n : Fin 96, ct (ix3 p q n) * w (ix2 n e) := by
  have hlt : p.val * 64 + q.val < 4096 := by have := p.isLt; have := q.isLt; omega
  rw [Cert.Lib.shapeCast_mn_abn_apply _ _ p q e ⟨p.val * 64 + q.val, hlt⟩ rfl, shapeCast_self]
  have hd : dot_S4096x96_S96x256_S4096x256_1_0_0_1_n_n
      = Cert.Lib.plain2 (A := 4096) (K := 96) (B := 256) dot_S4096x96_S96x256_S4096x256_1_0_0_1_n_n_wf := rfl
  rw [hd, Cert.Lib.matmul2_zero_apply]
  refine Finset.sum_congr rfl fun n _ => ?_
  rw [Cert.Lib.shapeCast_abn_mn_apply _ _ p q n ⟨p.val * 64 + q.val, hlt⟩ rfl]
  rfl

/-- The stored gated projection at (p, q, e). -/
theorem pay2_apply (v0 v3 v6 : Vec Ideal S64x64x1 .i32) (v30 : Vec Ideal S96x256 .bf16) (v34 : Vec Ideal S64x64x256 .f32)
    (p q : Fin 64) (e : Fin 256) :
    k0_pay2 (F := Ideal) v0 v3 v6 v30 v34 (ix3 p q e)
      = v34 (ix3 p q e) * ∑ n : Fin 96,
          code (v0 (ix3 p q (0 : Fin 1))) (v3 (ix3 p q (0 : Fin 1))) (v6 (ix3 p q (0 : Fin 1))) n.val * v30 (ix2 n e) := by
  unfold k0_pay2
  refine (congrArg (fun z => v34 (ix3 p q e) * z) (gate_apply (k0_pay1 v0 v3 v6) v30 p q e)).trans ?_
  simp only [pay1_apply]

end Cert.KernelIdeal.TileValue

end
-- ==== Proof.KernelBlock.lean ====
/-
  What the body leaves in the result tile.

  The body writes the result tile [64, 64, 352] with two stores: the gated projection into columns 0 … 255 and the
  code into columns 256 … 351 (the loads of the result tile that precede them feed neither stored value). Read back,
  the tile is therefore, column by column, the stored value whose rectangle holds the column: at (p, q, j) the gated
  projection of row (p, q) at j when j < 256, and the code of row (p, q) at j - 256 otherwise — the tile function of
  the specification, whatever the tile held before.
-/
import proofs.«123572_j3487513444382_1_alg».proof.Proof.Gen.KernelIdeal.Frame
import proofs.«123572_j3487513444382_1_alg».proof.Proof.KernelTile
import Idealize.ShloMosaic.Lib.Pipeline.Value

set_option maxRecDepth 16384

noncomputable section

namespace Cert.KernelIdeal.TileValue

open Cert.KernelIdeal Cert.KernelIdeal.Gen Idealize.ShloMosaic Idealize.ShloMosaic.TcCoe Idealize.ShloMosaic.Tactic
open Idealize.SL.Sem Idealize.ShloMosaic.ValueIdx Cert.Spec

theorem zero3 : (![0, 0, 0] : Fin 3 → Nat) = fun _ => 0 := funext fun a => by fin_cases a <;> rfl
theorem zero2 : (![0, 0] : Fin 2 → Nat) = fun _ => 0 := funext fun a => by fin_cases a <;> rfl

/-- The result tile after the body, from the input tiles: the specification's tile function. -/
theorem out_eq_tile (c : Dev nD) (i : grid0.Coords) (arg1 : Memref sig .tc .vmem S64x64x256 .f32) (harg1 : arg1.IsWhole) (arg2 : Memref sig .tc .vmem S64x64x1 .i32) (harg2 : arg2.IsWhole) (arg3 : Memref sig .tc .vmem S64x64x1 .i32) (harg3 : arg3.IsWhole) (arg4 : Memref sig .tc .vmem S64x64x1 .i32) (harg4 : arg4.IsWhole) (arg5 : Memref sig .tc .vmem S96x256 .bf16) (harg5 : arg5.IsWhole) (arg6 : Memref sig .tc .vmem S64x64x352 .f32) (harg6 : arg6.IsWhole)
    (x0 : Vec Ideal S64x64x256 .f32) (x1 : Vec Ideal S64x64x1 .i32) (x2 : Vec Ideal S64x64x1 .i32) (x3 : Vec Ideal S64x64x1 .i32) (x4 : Vec Ideal S96x256 .bf16) :
    out0_A_5 (F := Ideal) c i arg1 harg1 arg2 harg2 arg3 harg3 arg4 harg4 arg5 harg5 arg6 harg6 x0 x1 x2 x3 x4 = tile x0 x1 x2 x3 x4 := by
  unfold out0_A_5
  rw [View.read_writes_junk_eq_canon]
  funext y
  refine View.canon_apply_of_pieces (tile x0 x1 x2 x3 x4) _ ?_ y (cover0_A_5 c i arg1 harg1 arg2 harg2 arg3 harg3 arg4 harg4 arg5 harg5 arg6 harg6 x0 x1 x2 x3 x4 y)
  unfold kernelRun0_A
  dsimp only
  sl_unfold_words
  simp only [View.readAt_eq_ld, harg1.read_unread, harg2.read_unread, harg3.read_unread, harg4.read_unread, harg5.read_unread,
    View.ld_unit_zero (S := S64x64x256) zero3, View.ld_unit_zero (S := S64x64x1) zero3, View.ld_unit_zero (S := S96x256) zero2]
  refine List.forall_mem_cons.mpr ⟨?_, List.forall_mem_cons.mpr ⟨?_, by intro _ h; cases h⟩⟩
  · intro x
    obtain ⟨p, q, n, rfl⟩ : ∃ (p q : Fin 64) (n : Fin 96), x = ix3 p q n := ⟨x 0, x 1, x 2, eq_ix3 x⟩
    show k0_pay1 x1 x2 x3 (ix3 p q n)
      = tile x0 x1 x2 x3 x4 ((Rect.unit (s := S64x64x352) ![0, 0, 256] ![64, 64, 96] inb_S64x64x352_S64x64x96_0_0_256).emb (ix3 p q n))
    rw [pay1_apply]
    exact (tile_apply_hi x0 x1 x2 x3 x4 _ p q n (by show 0 + 1 * p.val = p.val; omega)
      (by show 0 + 1 * q.val = q.val; omega) (by show 256 + 1 * n.val = 256 + n.val; omega)).symm
  · intro x
    obtain ⟨p, q, e, rfl⟩ : ∃ (p q : Fin 64) (e : Fin 256), x = ix3 p q e := ⟨x 0, x 1, x 2, eq_ix3 x⟩
    show k0_pay2 x1 x2 x3 x4 x0 (ix3 p q e)
      = tile x0 x1 x2 x3 x4 ((Rect.unit (s := S64x64x352) ![0, 0, 0] ![64, 64, 256] inb_S64x64x352_S64x64x256_0_0_0).emb (ix3 p q e))
    rw [pay2_apply]
    exact (tile_apply_lo x0 x1 x2 x3 x4 _ p q e (by show 0 + 1 * p.val = p.val; omega)
      (by show 0 + 1 * q.val = q.val; omega) (by show 0 + 1 * e.val = e.val; omega)).symm

end Cert.KernelIdeal.TileValue

end
-- ==== Proof.KernelArray.lean ====
/-
  From tiles to the whole result array.

  The grid has 16 points; point t stages rows 64·t … 64·t + 63 of the sequence axis of vt, of the three word arrays
  (each given a trailing unit axis before the launch) and of the result, and the whole transposed weight (transposed
  and narrowed before the launch: narrowing is the identity on the extended reals). What point t writes back is the
  tile function of those input tiles, and a result row depends only on its own row of the inputs, so it is tile t of
  the specification's array of the arguments. Every sequence position s lies in the tile of point s / 64, so the
  tiles cover the array and it ends holding the specification.
-/
import proofs.«123572_j3487513444382_1_alg».proof.Proof.Gen.KernelIdeal.Value
import proofs.«123572_j3487513444382_1_alg».proof.Proof.KernelBlock
import Idealize.ShloMosaic.Lib.StableHlo.Run

set_option maxRecDepth 16384

noncomputable section

namespace Cert.KernelIdeal.ArrayValue

open Cert.KernelIdeal Cert.KernelIdeal.Gen Cert.KernelIdeal.Value Cert.KernelIdeal.TileValue
open Idealize.ShloMosaic Idealize.ShloMosaic.TcCoe Idealize.SL.Sem Idealize.ShloMosaic.ValueIdx Idealize.ShloMosaic.StableHlo Cert.Spec
open Idealize.ShloMosaic.Pipeline (Dat)

variable (m : (ℓ : Loc nD τ sig) → Buf (Elt Ideal) ℓ) (ρ : Dev nD → PrngReg)

/-! ## What the region finds in the arrays the launch prepared -/

/-- Window 4's array: the weight transposed (the narrowing does nothing on the extended reals). -/
theorem V_main_v1 (c : Dev nD) : @Eq (S96x256.Idx → EReal) (V m c main_v1)
    (truncf (F := Ideal) .bf16 (transpose S96x256 [1, 0] ((m ((c : Thread nD τ).loc main_arg4)) : FVec Ideal S256x96 .f32)
      transposes_S256x96_S96x256_1_0) bitsLt_bf16_f32) := by
  dsimp only [Gen.V, Gen.hostOps0]; after_results <;> rfl

theorem V_main_v1_apply (c : Dev nD) (n : Fin 96) (e : Fin 256) :
    (V m c main_v1 : S96x256.Idx → EReal) (ix2 n e) = ((m ((c : Thread nD τ).loc main_arg4)) : S256x96.Idx → EReal) (ix2 e n) := by
  rw [V_main_v1]
  show transpose S96x256 [1, 0] ((m ((c : Thread nD τ).loc main_arg4)) : FVec Ideal S256x96 .f32) transposes_S256x96_S96x256_1_0 (ix2 n e) = _
  exact transpose_apply [1, 0] _ _ (ix2 n e) (ix2 e n) (fun b => by
    match b with
    | ⟨0, _⟩ => rfl
    | ⟨1, _⟩ => rfl)

/-- What the region finds in window 1's array: argument main_arg1 given a trailing unit axis. -/
theorem V_main_v2 (c : Dev nD) : (V m c main_v2 : S64x1024x1.Idx → BitVec 32)
    = broadcastInDim S64x1024x1 ![0, 1] bcast_S64x1024_S64x1024x1_0_1 (m ((c : Thread nD τ).loc main_arg1)) := by
  dsimp only [Gen.V, Gen.hostOps0]; after_results <;> rfl

theorem V_main_v2_apply (c : Dev nD) (b : Fin 64) (s : Fin 1024) :
    (V m c main_v2 : S64x1024x1.Idx → BitVec 32) (ix3 b s (0 : Fin 1)) = ((m ((c : Thread nD τ).loc main_arg1)) : S64x1024.Idx → BitVec 32) (ix2 b s) := by
  rw [V_main_v2]
  exact broadcastInDim_apply _ bcast_S64x1024_S64x1024x1_0_1 _ (ix3 b s (0 : Fin 1)) (ix2 b s) (fun a => by
    match a with
    | ⟨0, _⟩ => show b.val = if (64 : Nat) = 1 then 0 else b.val; rw [if_neg (by decide)]
    | ⟨1, _⟩ => show s.val = if (1024 : Nat) = 1 then 0 else s.val; rw [if_neg (by decide)])

/-- What the region finds in window 2's array: argument main_arg2 given a trailing unit axis. -/
theorem V_main_v3 (c : Dev nD) : (V m c main_v3 : S64x1024x1.Idx → BitVec 32)
    = broadcastInDim S64x1024x1 ![0, 1] bcast_S64x1024_S64x1024x1_0_1 (m ((c : Thread nD τ).loc main_arg2)) := by
  dsimp only [Gen.V, Gen.hostOps0]; after_results <;> rfl

theorem V_main_v3_apply (c : Dev nD) (b : Fin 64) (s : Fin 1024) :
    (V m c main_v3 : S64x1024x1.Idx → BitVec 32) (ix3 b s (0 : Fin 1)) = ((m ((c : Thread nD τ).loc main_arg2)) : S64x1024.Idx → BitVec 32) (ix2 b s) := by
  rw [V_main_v3]
  exact broadcastInDim_apply _ bcast_S64x1024_S64x1024x1_0_1 _ (ix3 b s (0 : Fin 1)) (ix2 b s) (fun a => by
    match a with
    | ⟨0, _⟩ => show b.val = if (64 : Nat) = 1 then 0 else b.val; rw [if_neg (by decide)]
    | ⟨1, _⟩ => show s.val = if (1024 : Nat) = 1 then 0 else s.val; rw [if_neg (by decide)])

/-- What the region finds in window 3's array: argument main_arg3 given a trailing unit axis. -/
theorem V_main_v4 (c : Dev nD) : (V m c main_v4 : S64x1024x1.Idx → BitVec 32)
    = broadcastInDim S64x1024x1 ![0, 1] bcast_S64x1024_S64x1024x1_0_1 (m ((c : Thread nD τ).loc main_arg3)) := by
  dsimp only [Gen.V, Gen.hostOps0]; after_results <;> rfl

theorem V_main_v4_apply (c : Dev nD) (b : Fin 64) (s : Fin 1024) :
    (V m c main_v4 : S64x1024x1.Idx → BitVec 32) (ix3 b s (0 : Fin 1)) = ((m ((c : Thread nD τ).loc main_arg3)) : S64x1024.Idx → BitVec 32) (ix2 b s) := by
  rw [V_main_v4]
  exact broadcastInDim_apply _ bcast_S64x1024_S64x1024x1_0_1 _ (ix3 b s (0 : Fin 1)) (ix2 b s) (fun a => by
    match a with
    | ⟨0, _⟩ => show b.val = if (64 : Nat) = 1 then 0 else b.val; rw [if_neg (by decide)]
    | ⟨1, _⟩ => show s.val = if (1024 : Nat) = 1 then 0 else s.val; rw [if_neg (by decide)])

/-! ## The index maps, decided over the 16 points -/

/-- Point t's blocks: block t along the sequence axis for vt, the words and the result, block 0 on every other axis;
    the one block of the weight. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = t.val ∧ win0_3.index t (2 : Fin 3) = 0
    ∧ win0_4.index t (0 : Fin 2) = 0 ∧ win0_4.index t (1 : Fin 2) = 0
    ∧ win0_5.index t (0 : Fin 3) = 0 ∧ win0_5.index t (1 : Fin 3) = t.val ∧ win0_5.index t (2 : Fin 3) = 0 :=
  (by decide +kernel : ∀ t : Fin grid0.N, _)

/-! ## What a point writes back -/

/-- What point t writes back is tile t of the specification's array of the arguments. -/
theorem flushed_eq (c : Dev nD) (t : Fin cfg0.N) :
    (dats m 0 c).flushed 5 t = ((cfg0.win 5).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4))) := by
  have ht := out_eq_tile c (grid0.coords t) (ms0_0 t) (hs0_0 t) (ms0_1 t) (hs0_1 t) (ms0_2 t) (hs0_2 t) (ms0_3 t) (hs0_3 t)
    (ms0_4 t) (hs0_4 t) (ms0_5 t) (hs0_5 t) (iblk m c 0 t) (iblk m c 1 t) (iblk m c 2 t) (iblk m c 3 t) (iblk m c 4 t)
  rw [flushed5_A, ht]
  obtain ⟨a00, a01, a02, a10, a11, a12, a20, a21, a22, a30, a31, a32, a40, a41, a50, a51, a52⟩ := idx_facts t
  funext y
  show tile (iblk m c 0 t) (iblk m c 1 t) (iblk m c 2 t) (iblk m c 3 t) (iblk m c 4 t) y
    = (G (m ((c : Thread nD τ).loc main_arg0)) (m ((c : Thread nD τ).loc main_arg1)) (m ((c : Thread nD τ).loc main_arg2)) (m ((c : Thread nD τ).loc main_arg3)) (m ((c : Thread nD τ).loc main_arg4))) (((cfg0.win 5).blk t).view.emb y)
  refine tile_eq_G _ _ _ _ _ _ _ _ _ _ _ y ?_ ?_ ?_ ?_ ?_ ?_
  · intro e
    show V m c main_arg0 (((cfg0.win 0).blk t).view.emb (ix3 (y 0) (y 1) e)) = _
    have hi : ((cfg0.win 0).blk t).view.emb (ix3 (y 0) (y 1) e)
        = ix3 (((cfg0.win 5).blk t).view.emb y 0) (((cfg0.win 5).blk t).view.emb y 1) e := by
      funext a; apply Fin.ext
      match a with
      | ⟨0, _⟩ => show win0_0.index t (0 : Fin 3) * 64 + 1 * (y 0).val = win0_5.index t (0 : Fin 3) * 64 + 1 * (y 0).val; omega
      | ⟨1, _⟩ => show win0_0.index t (1 : Fin 3) * 64 + 1 * (y 1).val = win0_5.index t (1 : Fin 3) * 64 + 1 * (y 1).val; omega
      | ⟨2, _⟩ => show win0_0.index t (2 : Fin 3) * 256 + 1 * e.val = e.val; omega
    exact (congrArg (V m c main_arg0) hi).trans (congrFun (V_main_arg0 m c) _)
  · show (V m c main_v2 : S64x1024x1.Idx → BitVec 32) (((cfg0.win 1).blk t).view.emb (ix3 (y 0) (y 1) (0 : Fin 1))) = _
    have hi : ((cfg0.win 1).blk t).view.emb (ix3 (y 0) (y 1) (0 : Fin 1))
        = ix3 (((cfg0.win 5).blk t).view.emb y 0) (((cfg0.win 5).blk t).view.emb y 1) (0 : Fin 1) := by
      funext a; apply Fin.ext
      match a with
      | ⟨0, _⟩ => show win0_1.index t (0 : Fin 3) * 64 + 1 * (y 0).val = win0_5.index t (0 : Fin 3) * 64 + 1 * (y 0).val; omega
      | ⟨1, _⟩ => show win0_1.index t (1 : Fin 3) * 64 + 1 * (y 1).val = win0_5.index t (1 : Fin 3) * 64 + 1 * (y 1).val; omega
      | ⟨2, _⟩ => show win0_1.index t (2 : Fin 3) * 1 + 1 * 0 = 0; omega
    exact (congrArg (V m c main_v2) hi).trans (V_main_v2_apply m c _ _)
  · show (V m c main_v3 : S64x1024x1.Idx → BitVec 32) (((cfg0.win 2).blk t).view.emb (ix3 (y 0) (y 1) (0 : Fin 1))) = _
    have hi : ((cfg0.win 2).blk t).view.emb (ix3 (y 0) (y 1) (0 : Fin 1))
        = ix3 (((cfg0.win 5).blk t).view.emb y 0) (((cfg0.win 5).blk t).view.emb y 1) (0 : Fin 1) := by
      funext a; apply Fin.ext
      match a with
      | ⟨0, _⟩ => show win0_2.index t (0 : Fin 3) * 64 + 1 * (y 0).val = win0_5.index t (0 : Fin 3) * 64 + 1 * (y 0).val; omega
      | ⟨1, _⟩ => show win0_2.index t (1 : Fin 3) * 64 + 1 * (y 1).val = win0_5.index t (1 : Fin 3) * 64 + 1 * (y 1).val; omega
      | ⟨2, _⟩ => show win0_2.index t (2 : Fin 3) * 1 + 1 * 0 = 0; omega
    exact (congrArg (V m c main_v3) hi).trans (V_main_v3_apply m c _ _)
  · show (V m c main_v4 : S64x1024x1.Idx → BitVec 32) (((cfg0.win 3).blk t).view.emb (ix3 (y 0) (y 1) (0 : Fin 1))) = _
    have hi : ((cfg0.win 3).blk t).view.emb (ix3 (y 0) (y 1) (0 : Fin 1))
        = ix3 (((cfg0.win 5).blk t).view.emb y 0) (((cfg0.win 5).blk t).view.emb y 1) (0 : Fin 1) := by
      funext a; apply Fin.ext
      match a with
      | ⟨0, _⟩ => show win0_3.index t (0 : Fin 3) * 64 + 1 * (y 0).val = win0_5.index t (0 : Fin 3) * 64 + 1 * (y 0).val; omega
      | ⟨1, _⟩ => show win0_3.index t (1 : Fin 3) * 64 + 1 * (y 1).val = win0_5.index t (1 : Fin 3) * 64 + 1 * (y 1).val; omega
      | ⟨2, _⟩ => show win0_3.index t (2 : Fin 3) * 1 + 1 * 0 = 0; omega
    exact (congrArg (V m c main_v4) hi).trans (V_main_v4_apply m c _ _)
  · intro e n
    show (V m c main_v1 : S96x256.Idx → EReal) (((cfg0.win 4).blk t).view.emb (ix2 n e)) = _
    have hi : ((cfg0.win 4).blk t).view.emb (ix2 n e) = ix2 n e := by
      funext a; apply Fin.ext
      match a with
      | ⟨0, _⟩ => show win0_4.index t (0 : Fin 2) * 96 + 1 * n.val = n.val; omega
      | ⟨1, _⟩ => show win0_4.index t (1 : Fin 2) * 256 + 1 * e.val = e.val; omega
    exact (congrArg (V m c main_v1) hi).trans (V_main_v1_apply m c n e)
  · show (y 2).val = win0_5.index t (2 : Fin 3) * 352 + 1 * (y 2).val
    omega

/-! ## The tiles cover the array -/

/-- An index of the result array is in point t's tile iff each coordinate is in the tile's range on its axis. -/
theorem mem_blk (t : Fin cfg0.N) (i : S64x1024x352.Idx) :
    i ∈ ((cfg0.win 5).blk t).view.set ↔ ∀ a : Fin 3, win0_5.index t a * S64x64x352.size a ≤ (i a).val
      ∧ (i a).val < win0_5.index t a * S64x64x352.size a + S64x64x352.size a := by
  show i ∈ ((View.whole main_v5).slice (win0_5.rect t)).set ↔ _
  rw [View.set_slice_whole, Rect.mem_set_unit]
  exact Iff.rfl

/-- Sequence position s lies in the tile of point s / 64. -/
theorem cover (i : S64x1024x352.Idx) : ∃ t : Fin cfg0.N, (cfg0.win 5).flush t = true ∧ i ∈ ((cfg0.win 5).blk t).view.set := by
  have h0 : (i 0).val < 64 := (i 0).isLt
  have h1 : (i 1).val < 1024 := (i 1).isLt
  have h2 : (i 2).val < 352 := (i 2).isLt
  obtain ⟨t, ht⟩ : ∃ t : Fin cfg0.N, t.val = (i 1).val / 64 :=
    ⟨⟨(i 1).val / 64, by rw [show cfg0.N = 16 from N_0]; omega⟩, rfl⟩
  obtain ⟨-, -, -, -, -, -, -, -, -, -, -, -, -, -, a50, a51, a52⟩ := idx_facts t
  refine ⟨t, flush0_5 t, ?_⟩
  rw [mem_blk]
  intro a
  match a with
  | ⟨0, _⟩ => show win0_5.index t (0 : Fin 3) * 64 ≤ (i 0).val ∧ (i 0).val < win0_5.index t (0 : Fin 3) * 64 + 64; omega
  | ⟨1, _⟩ => show win0_5.index t (1 : Fin 3) * 64 ≤ (i 1).val ∧ (i 1).val < win0_5.index t (1 : Fin 3) * 64 + 64; omega
  | ⟨2, _⟩ => show win0_5.index t (2 : Fin 3) * 352 ≤ (i 2).val ∧ (i 2).val < win0_5.index t (2 : Fin 3) * 352 + 352; omega

/-! ## The array after the run, and the run -/

/-- The result array after the run is the specification of the arguments. -/
theorem final (c : Dev nD) : (dats m 0 c).arrAt 5 cfg0.N = (G (m ((c : Thread nD τ).loc main_arg0)) (m ((c : Thread nD τ).loc main_arg1)) (m ((c : Thread nD τ).loc main_arg2)) (m ((c : Thread nD τ).loc main_arg3)) (m ((c : Thread nD τ).loc main_arg4))) :=
  (dats m 0 c).arrAt_eq_of_cover 5 (G (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_eq m c t) cover

/-- Every weakly fair execution of the kernel program terminates with the result array at the specification of the
    arguments and the arguments unchanged. -/
theorem run : θ_run defs (onTc (τ := τ) (main (F := Ideal))) ⟨m, fun _ => 0, ρ⟩ fun r => ∀ c : Dev nD,
      r.2.mem ((c : Thread nD τ).loc main_v5) = (G (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.ArrayValue

end
-- ==== Proof.RefIsSpec.lean ====
/-
  The reference computes the specification.

  Read at (b, s, j) the reference's result is its last concatenation: for j < 256 the product vt[b, s, j] · (ct · Wᵀ)[b, s, j],
  where the contraction is the sum over n < 96 of ct[b, s, n] · W[j, n]; for j ≥ 256 the code ct[b, s, j - 256]. The
  code ct is the concatenation of three one-hot arrays, each the comparison of the word at (b, s), repeated along a
  new last axis, with the position 0 … 31 along that axis, converted to a number. Each of these is read at an index by
  the generated stage lemmas; the two concatenations by the join lemmas.
-/
import proofs.«123572_j3487513444382_1_alg».proof.Proof.Gen.ReferenceIdeal.Read
import proofs.«123572_j3487513444382_1_alg».proof.Proof.Spec
import proofs.«123572_j3487513444382_1_alg».proof.Proof.LibLastAxisJoin

noncomputable section

namespace Cert.ReferenceIdeal.RefValue

open Cert.ReferenceIdeal Cert.ReferenceIdeal.Read Idealize.ShloMosaic Idealize.ShloMosaic.ValueIdx Cert.Spec

/-- The reference's one-hot code of argument rgap at (b, s, k): the comparison of the word at (b, s) with k, as a number. -/
theorem onehot0_apply (x : (⟨S64x1024, .i32⟩ : BufTy).Contents (Elt Ideal)) (b : Fin 64) (s : Fin 1024) (k : Fin 32) :
    val_main_v0 (F := Ideal) x (ix3 b s k) = ind (x (ix2 b s)) k.val := by
  rw [val_main_v0_apply, val_main_call0_v4_apply, val_main_call0_v2_apply, val_main_call0_v0_apply,
    val_main_call0_v3_apply, val_main_call0_v1_apply]
  have e : idx_main_call0_v0 (idx_main_call0_v2 (ix3 b s k)) = ix2 b s := funext fun a => by
    match a with
    | ⟨0, _⟩ => rfl
    | ⟨1, _⟩ => rfl
  rw [e]
  rfl

/-- The reference's one-hot code of argument sgap at (b, s, k): the comparison of the word at (b, s) with k, as a number. -/
theorem onehot1_apply (x : (⟨S64x1024, .i32⟩ : BufTy).Contents (Elt Ideal)) (b : Fin 64) (s : Fin 1024) (k : Fin 32) :
    val_main_v1 (F := Ideal) x (ix3 b s k) = ind (x (ix2 b s)) k.val := by
  rw [val_main_v1_apply, val_main_call1_v4_apply, val_main_call1_v2_apply, val_main_call1_v0_apply,
    val_main_call1_v3_apply, val_main_call1_v1_apply]
  have e : idx_main_call1_v0 (idx_main_call1_v2 (ix3 b s k)) = ix2 b s := funext fun a => by
    match a with
    | ⟨0, _⟩ => rfl
    | ⟨1, _⟩ => rfl
  rw [e]
  rfl

/-- The reference's one-hot code of argument pcount at (b, s, k): the comparison of the word at (b, s) with k, as a number. -/
theorem onehot2_apply (x : (⟨S64x1024, .i32⟩ : BufTy).Contents (Elt Ideal)) (b : Fin 64) (s : Fin 1024) (k : Fin 32) :
    val_main_v2 (F := Ideal) x (ix3 b s k) = ind (x (ix2 b s)) k.val := by
  rw [val_main_v2_apply, val_main_call2_v4_apply, val_main_call2_v2_apply, val_main_call2_v0_apply,
    val_main_call2_v3_apply, val_main_call2_v1_apply]
  have e : idx_main_call2_v0 (idx_main_call2_v2 (ix3 b s k)) = ix2 b s := funext fun a => by
    match a with
    | ⟨0, _⟩ => rfl
    | ⟨1, _⟩ => rfl
  rw [e]
  rfl

/-- The reference's code array at (b, s, n) is the specification's code of the three words at (b, s). -/
theorem code_apply (x1 x2 x3 : (⟨S64x1024, .i32⟩ : BufTy).Contents (Elt Ideal)) (b : Fin 64) (s : Fin 1024) (n : Fin 96) :
    val_main_v3 (F := Ideal) x1 x2 x3 (ix3 b s n) = code (x1 (ix2 b s)) (x2 (ix2 b s)) (x3 (ix2 b s)) n.val := by
  unfold val_main_v3
  refine (Cert.Lib.join3_last_apply (a := 64) (b := 1024) (n0 := 32) (n1 := 32) (n2 := 32) (N := 96) _ _ _ _ rfl b s n).trans ?_
  unfold code
  by_cases h0 : n.val < 32
  · rw [dif_pos h0, if_pos h0, onehot0_apply]
  · rw [dif_neg h0, if_neg h0]
    by_cases h1 : n.val < 32 + 32
    · rw [dif_pos h1, if_pos h1, onehot1_apply]
    · rw [dif_neg h1, if_neg h1, onehot2_apply]

/-- The reference's result is the specification, as whole arrays. -/
theorem result_eq (x0 : (⟨S64x1024x256, .f32⟩ : BufTy).Contents (Elt Ideal)) (x1 x2 x3 : (⟨S64x1024, .i32⟩ : BufTy).Contents (Elt Ideal))
    (x4 : (⟨S256x96, .f32⟩ : BufTy).Contents (Elt Ideal)) :
    val_main_v6 (F := Ideal) x0 x1 x2 x3 x4 = G x0 x1 x2 x3 x4 := by
  funext i
  obtain ⟨b, s, j, rfl⟩ : ∃ (b : Fin 64) (s : Fin 1024) (j : Fin 352), i = ix3 b s j := ⟨i 0, i 1, i 2, eq_ix3 i⟩
  unfold val_main_v6
  refine (Cert.Lib.join2_last_apply (a := 64) (b := 1024) (n0 := 256) (n1 := 96) (N := 352) _ _ _ rfl b s j).trans ?_
  show _ = row (fun e => x0 (ix3 b s e)) (x1 (ix2 b s)) (x2 (ix2 b s)) (x3 (ix2 b s)) (fun e n => x4 (ix2 e n)) j.val
  unfold row
  by_cases h : j.val < 256
  · rw [dif_pos h, dif_pos h, val_main_v5_apply, val_main_v4_apply]
    have el : ∀ k : Fin 96, lidx_main_v4 (ix3 b s (⟨j.val, h⟩ : Fin 256)) k = ix3 b s k := fun k => funext fun a => by
      match a with
      | ⟨0, _⟩ => rfl
      | ⟨1, _⟩ => rfl
      | ⟨2, _⟩ => rfl
    have er : ∀ k : Fin 96, ridx_main_v4 (ix3 b s (⟨j.val, h⟩ : Fin 256)) k = ix2 (⟨j.val, h⟩ : Fin 256) k := fun k => funext fun a => by
      match a with
      | ⟨0, _⟩ => rfl
      | ⟨1, _⟩ => rfl
    simp only [el, er, code_apply]
    rfl
  · rw [dif_neg h, dif_neg h, code_apply]

end Cert.ReferenceIdeal.RefValue

end
-- ==== Proof.lean ====
/-
  The one-hot gated projection: a tiled kernel against its whole-array reference, equal on the extended reals.

  Both programs take vt [64, 1024, 256], three arrays of index words [64, 1024] and a weight W [256, 96], and return
  [64, 1024, 352]. For every batch row b and sequence position s the three words give a code of 96 entries (three
  one-hot codes of 32 classes side by side, each entry the 0/1 value of "word = class"); the result row is

      out[b, s, j]       = vt[b, s, j] · Σ_{n < 96} code(n) · W[j, n]     (j < 256),
      out[b, s, 256 + n] = code(n)                                         (n < 96).

  The reference builds the code with whole-array comparisons against an iota, contracts it with W over the class
  axis, multiplies by vt and concatenates. The kernel walks the sequence axis in 16 tiles of 64 positions; per tile
  it builds the same comparisons, flattens the tile's code to a [4096, 96] matrix, multiplies it with the weight
  (transposed before the launch) into a zero accumulator, cuts the product back into the tile, multiplies by the vt
  tile, and stores the product and the code into the two column ranges of the result tile.

  Read at an index, both are the same expression of the same entries of the arguments: the two one-hot spellings
  agree because a one-bit comparison result widened and read signed is the bit read unsigned; the flattening keeps
  rows (row p·64 + q of the matrix is tile row (p, q)); the matrix product and the contraction are the same sum over
  the 96 classes with the factors in the same order; changes of float format are the identity. A result row depends
  only on its own row of the inputs, so tile t of the result is tile t of the whole-array function, and the 16 tiles
  cover the array. No law of arithmetic is used, so nothing is asked of the inputs' finiteness.

  The kernel's program is its own idealization (no rewrite was applied), so that claim is trivial; the three frame
  claims are the generated frame runs.
-/
import proofs.«123572_j3487513444382_1_alg».proof.Defs
import proofs.«123572_j3487513444382_1_alg».proof.Proof.Gen.Kernel
import proofs.«123572_j3487513444382_1_alg».proof.Proof.Gen.Kernel.Frame
import proofs.«123572_j3487513444382_1_alg».proof.Proof.Gen.KernelIdeal
import proofs.«123572_j3487513444382_1_alg».proof.Proof.Gen.KernelIdeal.Frame
import proofs.«123572_j3487513444382_1_alg».proof.Proof.Gen.KernelIdeal.Value
import proofs.«123572_j3487513444382_1_alg».proof.Proof.Gen.ReferenceIdeal
import proofs.«123572_j3487513444382_1_alg».proof.Proof.Gen.ReferenceIdeal.Run
import proofs.«123572_j3487513444382_1_alg».proof.Proof.Gen.ReferenceIdeal.Read
import proofs.«123572_j3487513444382_1_alg».proof.Proof.Gen.Pre_finite_inputs
import proofs.«123572_j3487513444382_1_alg».proof.Proof.KernelArray
import proofs.«123572_j3487513444382_1_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The kernel read on the extended reals runs and leaves its arguments unchanged. -/
theorem frame_kernelIdeal : Cert.frame_KernelIdeal := fun m ρ _ => Cert.KernelIdeal.Gen.frame m ρ

/-- The reference runs and leaves its arguments unchanged: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories agreeing on the arguments both programs end with the result array at the specification of the
    arguments: the kernel tile by tile, the reference operation by operation. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v6_eq _ _ _ _ _).trans (Cert.ReferenceIdeal.RefValue.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
